-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S256x4 : Shape := ⟨2, ![256, 4]⟩
abbrev S4x1 : Shape := ⟨2, ![4, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .hbm, ⟨7, _⟩ => ⟨S16384x4096, .f32⟩
  | .hbm, ⟨8, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x2048x4096_S16384x4096 : S8x2048x4096.ShapeCasts S16384x4096
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  natLt_1_32 : 1 < 32
  iota_S256x4_d0_w32 : S256x4.Iotas .tc 32 [0]
  iota_S256x4_d1_w32 : S256x4.Iotas .tc 32 [1]
  broadcasts_S256x1_S256x4096 : S256x1.Broadcasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S16384x4096_S8x2048x4096 : S16384x4096.ShapeCasts S8x2048x4096
  dot_S256x4_S256x1_S4x1_0_0_1_1_n_n_wf : DotDims.WF S256x4 S256x1 S4x1 [0] [0] [1] [1] [] []
  dot_S256x4_S4x1_S256x1_1_0_0_1_n_n_wf : DotDims.WF S256x4 S4x1 S256x1 [1] [0] [0] [1] [] []
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x4_S256x1_S4x1_0_0_1_1_n_n : DotDims S256x4 S256x1 S4x1 where
  lhsContracting := [0]
  rhsContracting := [0]
  lhsNonContracting := [1]
  rhsNonContracting := [1]
  lhsBatch := []
  rhsBatch := []
  wf := dot_S256x4_S256x1_S4x1_0_0_1_1_n_n_wf
def dot_S256x4_S4x1_S256x1_1_0_0_1_n_n : DotDims S256x4 S4x1 S256x1 where
  lhsContracting := [1]
  rhsContracting := [0]
  lhsNonContracting := [0]
  rhsNonContracting := [1]
  lhsBatch := []
  rhsBatch := []
  wf := dot_S256x4_S4x1_S256x1_1_0_0_1_n_n_wf
def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S256x64 : Shape := ⟨2, ![256, 64]⟩
abbrev S256 : Shape := ⟨1, ![256]⟩
abbrev S16384x1 : Shape := ⟨2, ![16384, 1]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .i1⟩
  | .hbm, ⟨8, _⟩ => ⟨S_, .i1⟩
  | .hbm, ⟨9, _⟩ => ⟨S16384, .i1⟩
  | .hbm, ⟨10, _⟩ => ⟨S256x64, .i1⟩
  | .hbm, ⟨11, _⟩ => ⟨S_, .i1⟩
  | .hbm, ⟨12, _⟩ => ⟨S256, .i1⟩
  | .hbm, ⟨13, _⟩ => ⟨S256x64, .i1⟩
  | .hbm, ⟨14, _⟩ => ⟨S16384, .i1⟩
  | .hbm, ⟨15, _⟩ => ⟨S16384, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S4096x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  shapeCasts_S8x2048x4096_S16384x4096 : S8x2048x4096.ShapeCasts S16384x4096
  bcast_S_S16384x4096 : S_.BroadcastsInDim S16384x4096 (![] : Fin 0 → Fin S16384x4096.rank)
  reducesTo_S16384x4096_S16384_d1 : S16384x4096.ReducesTo [1] S16384
  h_S_ : 0 < S_.numel
  shapeCasts_S16384_S256x64 : S16384.ShapeCasts S256x64
  reducesTo_S256x64_S256_d1 : S256x64.ReducesTo [1] S256
  bcast_S256_S256x64_0 : S256.BroadcastsInDim S256x64 (![0] : Fin 1 → Fin S256x64.rank)
  shapeCasts_S256x64_S16384 : S256x64.ShapeCasts S16384
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S8x2048x4096 : S16384x4096.ShapeCasts S8x2048x4096
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.MaskMath.lean ====
/-
  The mathematics of the tile-activity mask, free of any program.

  A row of a matrix is ON when some entry exceeds a threshold in absolute value; a row's TILE (its group of 64
  consecutive rows) is on when some row of the group is on; the mask of a row is 1 when its tile is on and 0
  otherwise.  Two computations of that mask are met later: by Boolean reductions, and by sums against the 0/1
  indicator matrix of "row r lies in group g".  This file holds what both need: one-bit words read as numbers,
  a maximum over a row compared with the threshold, positivity of a sum of non-negative extended reals, the sum
  that selects one group, and the integer arithmetic that computes a row's group.
-/
import Idealize.ShloMosaic.PureOps.Ideal
import Idealize.ShloMosaic.PureOps.Ideal.Laws
import Idealize.ShloMosaic.Lib.ValueIdx
import Idealize.ShloMosaic.Lib.WordArith

noncomputable section

namespace Cert.TileMask

open Idealize.ShloMosaic Idealize.ShloMosaic.ValueIdx
open Classical

/-! ## The specification -/

/-- The threshold both programs compare with, as an extended real: the value of the 32-bit float pattern. -/
def thr : EReal := Ideal.ofBits .f32 0x358637BD#32

/-- Row `R` of `X` has an entry whose absolute value exceeds `θ`. -/
def rowOn (θ : EReal) {N K : Nat} (X : (⟨2, ![N, K]⟩ : Shape).Idx → EReal) (R : Fin N) : Prop :=
  ∃ k : Fin K, θ < max (X (ix2 R k)) (-(X (ix2 R k)))

/-- Some row in `R`'s group of 64 consecutive rows is on. -/
def tileOn (θ : EReal) {N K : Nat} (X : (⟨2, ![N, K]⟩ : Shape).Idx → EReal) (R : Fin N) : Prop :=
  ∃ R' : Fin N, R'.val / 64 = R.val / 64 ∧ rowOn θ X R'

/-- The mask: 1 on the rows of a tile that is on, 0 elsewhere. -/
def tileMask (θ : EReal) {N K : Nat} (X : (⟨2, ![N, K]⟩ : Shape).Idx → EReal) (R : Fin N) : EReal :=
  if tileOn θ X R then 1 else 0

/-! ## One-bit words as numbers -/

theorem bit_cases (b : BitVec 1) : b = 0#1 ∨ b = 1#1 := by
  revert b; decide

/-- A bit widened to a word and read signed is 1 or 0. -/
theorem bit_signed (b : BitVec 1) : ((((b.setWidth 32).toInt : ℤ) : ℝ) : EReal) = if b = 1#1 then 1 else 0 := by
  rcases bit_cases b with rfl | rfl
  · rw [if_neg (by decide)]; norm_num
  · rw [if_pos rfl]; norm_num

/-- A bit read unsigned is 1 or 0. -/
theorem bit_unsigned (b : BitVec 1) : (((b.toNat : ℕ) : ℝ) : EReal) = if b = 1#1 then 1 else 0 := by
  rcases bit_cases b with rfl | rfl
  · rw [if_neg (by decide)]; norm_num
  · rw [if_pos rfl]; norm_num

/-- The comparison "greater than" on the extended reals, as a bit. -/
theorem gt_bit (x y : EReal) : Ideal.cmp .ogt x y = 1#1 ↔ y < x := by
  show BitVec.ofBool (decide (y < x)) = 1#1 ↔ y < x
  by_cases h : y < x <;> simp [h]

/-- The pattern of minus infinity. -/
theorem neg_inf_bits : Ideal.ofBits .f32 0xFF800000#32 = (⊥ : EReal) := by
  simp [Ideal.ofBits, Ideal.ieee]

/-! ## A maximum against a threshold -/

/-- A maximum taken from minus infinity exceeds `θ` exactly when some term does. -/
theorem lt_fold_max_bot {K : Nat} (θ : EReal) (f : Fin K → EReal) :
    θ < (Finset.univ : Finset (Fin K)).fold max ⊥ f ↔ ∃ k, θ < f k := by
  rw [Finset.lt_fold_max]
  constructor
  · rintro (h | ⟨k, -, h⟩)
    · exact absurd h not_lt_bot
    · exact ⟨k, h⟩
  · rintro ⟨k, h⟩
    exact Or.inr ⟨k, Finset.mem_univ k, h⟩

/-! ## Sums of non-negative extended reals -/

/-- A finite sum of non-negative extended reals is positive exactly when a term is. -/
theorem sum_pos_iff {ι : Type} [Fintype ι] (f : ι → EReal) (h0 : ∀ i, 0 ≤ f i) :
    0 < ∑ i, f i ↔ ∃ i, 0 < f i := by
  constructor
  · intro h
    by_contra hne
    have hne' : ∀ i, ¬ 0 < f i := not_exists.mp hne
    have hz : ∑ i, f i = 0 := Finset.sum_eq_zero (fun i _ => le_antisymm (not_lt.mp (hne' i)) (h0 i))
    rw [hz] at h
    exact lt_irrefl _ h
  · rintro ⟨i, hi⟩
    exact lt_of_lt_of_le hi (Finset.single_le_sum (fun j _ => h0 j) (Finset.mem_univ i))

/-- A product of two indicators is the indicator of the conjunction. -/
theorem ind_mul_ind (p q : Prop) [Decidable p] [Decidable q] [Decidable (p ∧ q)] :
    (if p then (1 : EReal) else 0) * (if q then (1 : EReal) else 0) = if p ∧ q then 1 else 0 := by
  by_cases hp : p <;> by_cases hq : q <;> simp [hp, hq]

/-- The mask by sums.  `P` is the indicator matrix of "row r lies in group g", `a` the rows' indicator, `ga` each
    group's indicator computed as "the group's sum of row indicators is positive".  Summing `P r g · ga g` over the
    four groups gives the indicator that some row of `r`'s group is on. -/
theorem mask_by_sums (P : Fin 256 → Fin 4 → EReal) (a : Fin 256 → EReal) (on : Fin 256 → Prop) (ga : Fin 4 → EReal)
    (hP : ∀ r g, P r g = if r.val / 64 = g.val then 1 else 0)
    (ha : ∀ r, a r = if on r then 1 else 0)
    (hga : ∀ g, ga g = if 0 < ∑ r : Fin 256, P r g * a r then 1 else 0) (r : Fin 256) :
    ∑ g : Fin 4, P r g * ga g = if (∃ r' : Fin 256, r'.val / 64 = r.val / 64 ∧ on r') then 1 else 0 := by
  have hr : r.val / 64 < 4 := by have := r.isLt; omega
  have hsel : ∑ g : Fin 4, P r g * ga g = ga ⟨r.val / 64, hr⟩ := by
    rw [Finset.sum_eq_single (⟨r.val / 64, hr⟩ : Fin 4)]
    · rw [hP, if_pos rfl, one_mul]
    · intro g _ hg
      rw [hP, if_neg (fun e => hg (Fin.ext e.symm)), zero_mul]
    · intro h; exact absurd (Finset.mem_univ _) h
  rw [hsel, hga]
  have hpos : (0 < ∑ r' : Fin 256, P r' ⟨r.val / 64, hr⟩ * a r') ↔ ∃ r' : Fin 256, r'.val / 64 = r.val / 64 ∧ on r' := by
    have hterm : ∀ r' : Fin 256, P r' ⟨r.val / 64, hr⟩ * a r' = if (r'.val / 64 = r.val / 64 ∧ on r') then 1 else 0 := by
      intro r'; rw [hP, ha]; exact ind_mul_ind _ _
    rw [sum_pos_iff _ (fun r' => by rw [hterm]; split_ifs <;> norm_num)]
    constructor
    · rintro ⟨r', h⟩
      rw [hterm] at h
      by_cases hc : r'.val / 64 = r.val / 64 ∧ on r'
      · exact ⟨r', hc⟩
      · rw [if_neg hc] at h; exact absurd h (lt_irrefl _)
    · rintro ⟨r', hc⟩
      exact ⟨r', by rw [hterm, if_pos hc]; norm_num⟩
  exact if_congr hpos rfl rfl

/-! ## A row's group, in 32-bit arithmetic -/

/-- Signed division of a row number by 64 rounded toward minus infinity (the quotient toward zero, less one when
    the signs differ and the remainder is not zero), compared with a group number. -/
def groupBit (a b : BitVec 32) : BitVec 1 :=
  IntOp.cmpi .eq
    (Scalar.select
      (IntOp.andi
        (IntOp.cmpi .ne
          (IntOp.subi ((IntOp.cmpi .sgt a 0#32).setWidth 32) ((IntOp.cmpi .slt a 0#32).setWidth 32))
          (Scalar.subi (Scalar.extui (Scalar.cmpi .sgt 64#32 0#32)) (Scalar.extui (Scalar.cmpi .slt 64#32 0#32))))
        (IntOp.cmpi .ne (IntOp.remsi .vector a 64#32) 0#32))
      (IntOp.subi (IntOp.divsi .vector a 64#32) 1#32)
      (IntOp.divsi .vector a 64#32))
    b

/-- On row numbers below 256 and group numbers below 4 that is "r / 64 = g". -/
theorem groupBit_eq : ∀ (r : Fin 256) (g : Fin 4),
    groupBit (BitVec.ofNat 32 r.val) (BitVec.ofNat 32 g.val) = BitVec.ofBool (decide (r.val / 64 = g.val)) := by
  decide +kernel

end Cert.TileMask

end
-- ==== Proof.KernelMask.lean ====
/-
  The kernel body's row mask, read at an index.

  Inside one block of 256 rows the body computes, per row, whether the row's largest absolute value exceeds the
  threshold (a 0/1 column); multiplies that column by the 0/1 indicator matrix of "row r lies in group g" (four
  groups of 64 rows) to count the active rows of each group; turns each count into 0/1 by comparing with zero;
  and multiplies the indicator matrix by those four numbers, which copies each group's number to its 64 rows.
  The result, broadcast along the row, is the tile mask of the block (`Cert.TileMask.tileMask`).
-/
import proofs.«179736_j89421219103267_2_alg».proof.Proof.Gen.KernelIdeal.Skeleton
import proofs.«179736_j89421219103267_2_alg».proof.Proof.MaskMath
import Idealize.ShloMosaic.Lib.Pipeline.Value
import Idealize.ShloMosaic.Lib.ValueIdx
import Idealize.ShloMosaic.PureOps.Ideal.Laws

noncomputable section

namespace Cert.KernelIdeal.Mask

open Cert.KernelIdeal Cert.KernelIdeal.Gen Idealize.ShloMosaic Idealize.ShloMosaic.ValueIdx Cert.TileMask
open Classical

/-! ## The body's stages -/

/-- Per row: does the row's maximum of absolute values exceed the threshold? -/
def rowBits (x0 : Vec Ideal S256x4096 .f32) : IVec S256x1 1 :=
  cmpf .ogt
    (shapeCast S256x1 (multiReduction .maximumf [1] S256 (absf (shapeCast S256x4096 x0 shapeCasts_S256x4096_S256x4096)) 0xFF800000#32 reduces_S256x4096_S256 (.inl rfl) rfl) shapeCasts_S256_S256x1)
    (broadcast S256x1 (Scalar.ofBits (F := Ideal) .f32 0x358637BD#32))

/-- The same as a 0/1 column. -/
def rowAct (x0 : Vec Ideal S256x4096 .f32) : FVec Ideal S256x1 .f32 := sitofp .f32 (extui 32 (rowBits x0) natLt_1_32)

/-- "Row r lies in group g", as bits: the row number divided by 64 (rounded down) against the group number. -/
def grpBits : IVec S256x4 1 :=
  cmpi .eq
    (select
      (andi
        (cmpi .ne
          (subi (extui 32 (cmpi .sgt (iota .tc S256x4 32 [0] iota_S256x4_d0_w32) (broadcast S256x4 0#32)) natLt_1_32)
                (extui 32 (cmpi .slt (iota .tc S256x4 32 [0] iota_S256x4_d0_w32) (broadcast S256x4 0#32)) natLt_1_32))
          (broadcast S256x4 (Scalar.subi (Scalar.extui (Scalar.cmpi .sgt 64#32 0#32)) (Scalar.extui (Scalar.cmpi .slt 64#32 0#32)))))
        (cmpi .ne (remsi (iota .tc S256x4 32 [0] iota_S256x4_d0_w32) (broadcast S256x4 64#32)) (broadcast S256x4 0#32)))
      (subi (divsi (iota .tc S256x4 32 [0] iota_S256x4_d0_w32) (broadcast S256x4 64#32)) (broadcast S256x4 1#32))
      (divsi (iota .tc S256x4 32 [0] iota_S256x4_d0_w32) (broadcast S256x4 64#32)))
    (iota .tc S256x4 32 [1] iota_S256x4_d1_w32)

/-- The indicator matrix. -/
def grpMat : FVec Ideal S256x4 .f32 := sitofp .f32 (extui 32 grpBits natLt_1_32)

/-- Each group's number of active rows. -/
def grpSum (x0 : Vec Ideal S256x4096 .f32) : FVec Ideal S4x1 .f32 :=
  matmul dot_S256x4_S256x1_S4x1_0_0_1_1_n_n none grpMat (rowAct x0) (constant S4x1 .f32 0x00000000#32)

/-- Each group's activity, 0/1. -/
def grpAct (x0 : Vec Ideal S256x4096 .f32) : FVec Ideal S4x1 .f32 :=
  sitofp .f32 (extui 32 (cmpf .ogt (grpSum x0) (broadcast S4x1 (Scalar.ofBits (F := Ideal) .f32 0x00000000#32))) natLt_1_32)

/-- Each row's mask: its group's activity. -/
def rowMask (x0 : Vec Ideal S256x4096 .f32) : FVec Ideal S256x1 .f32 :=
  matmul dot_S256x4_S4x1_S256x1_1_0_0_1_n_n none grpMat (grpAct x0) (constant S256x1 .f32 0x00000000#32)

/-- The body's mask payload is these stages, broadcast along each row. -/
theorem pay3_eq (x0 : Vec Ideal S256x4096 .f32) :
    k0_pay3 (F := Ideal) x0 = broadcastTo S256x4096 (rowMask x0) broadcasts_S256x1_S256x4096 := rfl

/-! ## The stages at an index -/

/-- Inserting column `k` into row index `r`. -/
theorem lift_row (r : Fin 256) (k : Fin 4096) : reduces_S256x4096_S256.lift (ix1 r) k = ix2 r k := by
  funext a
  apply Fin.ext
  match a with
  | ⟨0, _⟩ => rfl
  | ⟨1, _⟩ => rfl

/-- A row's maximum, taken from minus infinity, exceeds the threshold exactly when an entry of the row does. -/
theorem rowMax_gt (v : FVec Ideal S256x4096 .f32) (r : Fin 256) :
    thr < multiReduction .maximumf [1] S256 v 0xFF800000#32 reduces_S256x4096_S256 (.inl rfl) rfl (ix1 r)
      ↔ ∃ k : Fin 4096, thr < v (ix2 r k) := by
  have e := Ideal.multiReduction_maximumf_single v 0xFF800000#32 reduces_S256x4096_S256 (.inl rfl) rfl (ix1 r)
  rw [e]
  show thr < Finset.fold max (Ideal.ofBits .f32 0xFF800000#32) _ _ ↔ _
  rw [neg_inf_bits, lt_fold_max_bot]
  exact exists_congr fun k => iff_of_eq (congrArg (fun j => thr < v j) (lift_row r k))

theorem rowBits_iff (x0 : Vec Ideal S256x4096 .f32) (r : Fin 256) (z : Fin 1) :
    rowBits x0 (ix2 r z) = 1#1 ↔ rowOn thr x0 r := by
  have hz : z.val = 0 := by have := z.isLt; omega
  unfold rowBits
  rw [cmpf_apply]
  show Ideal.cmp .ogt _ thr = 1#1 ↔ _
  rw [gt_bit, shapeCast_apply _ shapeCasts_S256_S256x1 (ix2 r z) (ix1 r)
    (by rw [Shape.rowMajor_val_one, Shape.rowMajor_val_two]; show r.val = r.val * 1 + z.val; omega)]
  refine (rowMax_gt _ r).trans ?_
  rw [shapeCast_self]
  exact Iff.rfl

theorem rowAct_apply (x0 : Vec Ideal S256x4096 .f32) (r : Fin 256) (z : Fin 1) :
    rowAct x0 (ix2 r z) = if rowOn thr x0 r then 1 else 0 := by
  show (((((rowBits x0 (ix2 r z)).setWidth 32).toInt : ℤ) : ℝ) : EReal) = _
  rw [bit_signed]
  exact if_congr (rowBits_iff x0 r z) rfl rfl

theorem grpBits_apply (r : Fin 256) (g : Fin 4) : grpBits (ix2 r g) = BitVec.ofBool (decide (r.val / 64 = g.val)) := by
  have h9 : iota .tc S256x4 32 [0] iota_S256x4_d0_w32 (ix2 r g) = BitVec.ofNat 32 r.val :=
    iota_single_apply .tc S256x4 32 0 iota_S256x4_d0_w32 (ix2 r g)
  have h10 : iota .tc S256x4 32 [1] iota_S256x4_d1_w32 (ix2 r g) = BitVec.ofNat 32 g.val :=
    iota_single_apply .tc S256x4 32 1 iota_S256x4_d1_w32 (ix2 r g)
  show groupBit (iota .tc S256x4 32 [0] iota_S256x4_d0_w32 (ix2 r g)) (iota .tc S256x4 32 [1] iota_S256x4_d1_w32 (ix2 r g)) = _
  rw [h9, h10]
  exact groupBit_eq r g

theorem grpMat_apply (r : Fin 256) (g : Fin 4) : grpMat (ix2 r g) = if r.val / 64 = g.val then 1 else 0 := by
  show (((((grpBits (ix2 r g)).setWidth 32).toInt : ℤ) : ℝ) : EReal) = _
  rw [bit_signed, grpBits_apply]
  by_cases h : r.val / 64 = g.val <;> simp [h]

/-! ### The two small products as sums -/

theorem dA_lhs0 (i : S4x1.Idx) (q : (dot_S256x4_S256x1_S4x1_0_0_1_1_n_n).contr.Idx) :
    ((dot_S256x4_S256x1_S4x1_0_0_1_1_n_n).lhsIdx i q 0).val = (q ⟨0, by decide⟩).val :=
  (dot_S256x4_S256x1_S4x1_0_0_1_1_n_n).lhsIdx_val_of_single rfl i q
theorem dA_lhs1 (i : S4x1.Idx) (q : (dot_S256x4_S256x1_S4x1_0_0_1_1_n_n).contr.Idx) :
    ((dot_S256x4_S256x1_S4x1_0_0_1_1_n_n).lhsIdx i q 1).val = (i 0).val := by
  unfold DotDims.lhsIdx
  rw [dif_neg (show ¬(1 : Fin S256x4.rank) ∈ (dot_S256x4_S256x1_S4x1_0_0_1_1_n_n).lhsBatch by decide),
    dif_pos (show (1 : Fin S256x4.rank) ∈ (dot_S256x4_S256x1_S4x1_0_0_1_1_n_n).lhsNonContracting by decide)]
  rfl
theorem dA_rhs0 (i : S4x1.Idx) (q : (dot_S256x4_S256x1_S4x1_0_0_1_1_n_n).contr.Idx) :
    ((dot_S256x4_S256x1_S4x1_0_0_1_1_n_n).rhsIdx i q 0).val = (q ⟨0, by decide⟩).val :=
  (dot_S256x4_S256x1_S4x1_0_0_1_1_n_n).rhsIdx_val_of_single rfl i q
theorem dA_rhs1 (i : S4x1.Idx) (q : (dot_S256x4_S256x1_S4x1_0_0_1_1_n_n).contr.Idx) :
    ((dot_S256x4_S256x1_S4x1_0_0_1_1_n_n).rhsIdx i q 1).val = (i 1).val := by
  unfold DotDims.rhsIdx
  rw [dif_neg (show ¬(1 : Fin S256x1.rank) ∈ (dot_S256x4_S256x1_S4x1_0_0_1_1_n_n).rhsBatch by decide),
    dif_pos (show (1 : Fin S256x1.rank) ∈ (dot_S256x4_S256x1_S4x1_0_0_1_1_n_n).rhsNonContracting by decide)]
  rfl

/-- A group's count is the sum over the block's rows of indicator times row activity. -/
theorem grpSum_apply (x0 : Vec Ideal S256x4096 .f32) (g : Fin 4) (z : Fin 1) :
    grpSum x0 (ix2 g z) = ∑ r : Fin 256, grpMat (ix2 r g) * rowAct x0 (ix2 r z) := by
  unfold grpSum
  show FloatOps.matmul dot_S256x4_S256x1_S4x1_0_0_1_1_n_n none grpMat (rowAct x0) (constant S4x1 .f32 0x00000000#32) (ix2 g z) = _
  rw [Ideal.matmul_constant_zero_apply, ← Equiv.sum_comp (contrEquiv1 dot_S256x4_S256x1_S4x1_0_0_1_1_n_n 256 rfl rfl).symm]
  refine Finset.sum_congr rfl fun k _ => ?_
  have hk := contrEquiv1_symm_val dot_S256x4_S256x1_S4x1_0_0_1_1_n_n 256 rfl rfl k
  have el : (dot_S256x4_S256x1_S4x1_0_0_1_1_n_n).lhsIdx (ix2 g z) ((contrEquiv1 dot_S256x4_S256x1_S4x1_0_0_1_1_n_n 256 rfl rfl).symm k) = ix2 k g :=
    funext fun a => Fin.ext (by
      match a with
      | ⟨0, _⟩ => exact (dA_lhs0 _ _).trans hk
      | ⟨1, _⟩ => exact dA_lhs1 _ _)
  have er : (dot_S256x4_S256x1_S4x1_0_0_1_1_n_n).rhsIdx (ix2 g z) ((contrEquiv1 dot_S256x4_S256x1_S4x1_0_0_1_1_n_n 256 rfl rfl).symm k) = ix2 k z :=
    funext fun a => Fin.ext (by
      match a with
      | ⟨0, _⟩ => exact (dA_rhs0 _ _).trans hk
      | ⟨1, _⟩ => exact dA_rhs1 _ _)
  rw [el, er]

theorem dB_lhs0 (i : S256x1.Idx) (q : (dot_S256x4_S4x1_S256x1_1_0_0_1_n_n).contr.Idx) :
    ((dot_S256x4_S4x1_S256x1_1_0_0_1_n_n).lhsIdx i q 0).val = (i 0).val := by
  unfold DotDims.lhsIdx
  rw [dif_neg (show ¬(0 : Fin S256x4.rank) ∈ (dot_S256x4_S4x1_S256x1_1_0_0_1_n_n).lhsBatch by decide),
    dif_pos (show (0 : Fin S256x4.rank) ∈ (dot_S256x4_S4x1_S256x1_1_0_0_1_n_n).lhsNonContracting by decide)]
  rfl
theorem dB_lhs1 (i : S256x1.Idx) (q : (dot_S256x4_S4x1_S256x1_1_0_0_1_n_n).contr.Idx) :
    ((dot_S256x4_S4x1_S256x1_1_0_0_1_n_n).lhsIdx i q 1).val = (q ⟨0, by decide⟩).val :=
  (dot_S256x4_S4x1_S256x1_1_0_0_1_n_n).lhsIdx_val_of_single rfl i q
theorem dB_rhs0 (i : S256x1.Idx) (q : (dot_S256x4_S4x1_S256x1_1_0_0_1_n_n).contr.Idx) :
    ((dot_S256x4_S4x1_S256x1_1_0_0_1_n_n).rhsIdx i q 0).val = (q ⟨0, by decide⟩).val :=
  (dot_S256x4_S4x1_S256x1_1_0_0_1_n_n).rhsIdx_val_of_single rfl i q
theorem dB_rhs1 (i : S256x1.Idx) (q : (dot_S256x4_S4x1_S256x1_1_0_0_1_n_n).contr.Idx) :
    ((dot_S256x4_S4x1_S256x1_1_0_0_1_n_n).rhsIdx i q 1).val = (i 1).val := by
  unfold DotDims.rhsIdx
  rw [dif_neg (show ¬(1 : Fin S4x1.rank) ∈ (dot_S256x4_S4x1_S256x1_1_0_0_1_n_n).rhsBatch by decide),
    dif_pos (show (1 : Fin S4x1.rank) ∈ (dot_S256x4_S4x1_S256x1_1_0_0_1_n_n).rhsNonContracting by decide)]
  rfl

/-- A row's mask is the sum over the four groups of indicator times group activity. -/
theorem rowMask_apply (x0 : Vec Ideal S256x4096 .f32) (r : Fin 256) (z : Fin 1) :
    rowMask x0 (ix2 r z) = ∑ g : Fin 4, grpMat (ix2 r g) * grpAct x0 (ix2 g z) := by
  unfold rowMask
  show FloatOps.matmul dot_S256x4_S4x1_S256x1_1_0_0_1_n_n none grpMat (grpAct x0) (constant S256x1 .f32 0x00000000#32) (ix2 r z) = _
  rw [Ideal.matmul_constant_zero_apply, ← Equiv.sum_comp (contrEquiv1 dot_S256x4_S4x1_S256x1_1_0_0_1_n_n 4 rfl rfl).symm]
  refine Finset.sum_congr rfl fun k _ => ?_
  have hk := contrEquiv1_symm_val dot_S256x4_S4x1_S256x1_1_0_0_1_n_n 4 rfl rfl k
  have el : (dot_S256x4_S4x1_S256x1_1_0_0_1_n_n).lhsIdx (ix2 r z) ((contrEquiv1 dot_S256x4_S4x1_S256x1_1_0_0_1_n_n 4 rfl rfl).symm k) = ix2 r k :=
    funext fun a => Fin.ext (by
      match a with
      | ⟨0, _⟩ => exact dB_lhs0 _ _
      | ⟨1, _⟩ => exact (dB_lhs1 _ _).trans hk)
  have er : (dot_S256x4_S4x1_S256x1_1_0_0_1_n_n).rhsIdx (ix2 r z) ((contrEquiv1 dot_S256x4_S4x1_S256x1_1_0_0_1_n_n 4 rfl rfl).symm k) = ix2 k z :=
    funext fun a => Fin.ext (by
      match a with
      | ⟨0, _⟩ => exact (dB_rhs0 _ _).trans hk
      | ⟨1, _⟩ => exact dB_rhs1 _ _)
  rw [el, er]

theorem grpAct_apply (x0 : Vec Ideal S256x4096 .f32) (g : Fin 4) (z : Fin 1) :
    grpAct x0 (ix2 g z) = if 0 < ∑ r : Fin 256, grpMat (ix2 r g) * rowAct x0 (ix2 r z) then 1 else 0 := by
  show (((((Ideal.cmp .ogt (grpSum x0 (ix2 g z)) (Ideal.ofBits .f32 0x00000000#32)).setWidth 32).toInt : ℤ) : ℝ) : EReal) = _
  rw [bit_signed, Ideal.ofBits_zero_f32, grpSum_apply]
  exact if_congr (gt_bit _ _) rfl rfl

/-! ## The mask -/

/-- The row mask of a block is the block's tile mask. -/
theorem rowMask_eq (x0 : Vec Ideal S256x4096 .f32) (r : Fin 256) (z : Fin 1) :
    rowMask x0 (ix2 r z) = tileMask thr x0 r := by
  rw [rowMask_apply]
  refine (mask_by_sums (fun r g => grpMat (ix2 r g)) (fun r => rowAct x0 (ix2 r z)) (rowOn thr x0) (fun g => grpAct x0 (ix2 g z))
    grpMat_apply (fun r => rowAct_apply x0 r z) (fun g => grpAct_apply x0 g z) r).trans ?_
  unfold tileMask tileOn
  split_ifs <;> rfl

/-- The body's mask payload at row `r`, column `k`. -/
theorem pay3_apply (x0 : Vec Ideal S256x4096 .f32) (r : Fin 256) (k : Fin 4096) :
    k0_pay3 (F := Ideal) x0 (ix2 r k) = tileMask thr x0 r := by
  rw [pay3_eq, broadcastTo_apply (rowMask x0) broadcasts_S256x1_S256x4096 (ix2 r k) (ix2 r (0 : Fin 1))
    (fun a => match a with
      | ⟨0, _⟩ => by show r.val = if (256 : Nat) = 1 then 0 else r.val; rw [if_neg (by decide)]
      | ⟨1, _⟩ => by show 0 = if (1 : Nat) = 1 then 0 else k.val; rw [if_pos rfl])]
  exact rowMask_eq x0 r 0

end Cert.KernelIdeal.Mask

end
-- ==== Proof.KernelBlock.lean ====
/-
  What the kernel body stores into its output block, read at an index.

  The body multiplies each row of its 256-row block of x by that row's tile mask, multiplies the masked block by
  the whole (transposed) weight matrix and adds the bias row.  At row r and column n the stored value is therefore
  the sum over k of (x[r,k] · mask r) · wt[k,n], plus bias[0,n].  A change of float format is the identity on the
  extended reals, and the product into a zero accumulator is the plain sum.
-/
import proofs.«179736_j89421219103267_2_alg».proof.Proof.Gen.KernelIdeal.Frame
import proofs.«179736_j89421219103267_2_alg».proof.Proof.KernelMask

noncomputable section

namespace Cert.KernelIdeal.Block

open Cert.KernelIdeal Cert.KernelIdeal.Gen Cert.KernelIdeal.Mask Idealize.ShloMosaic Idealize.ShloMosaic.ValueIdx Cert.TileMask

/-- The value the body stores, from the three input blocks. -/
def blockVal (x0 : Vec Ideal S256x4096 .f32) (x1 : Vec Ideal S4096x4096 .bf16) (x2 : Vec Ideal S1x4096 .f32) : FVec Ideal S256x4096 .f32 :=
  addf
    (matmul dot_S256x4096_S4096x4096_S256x4096_1_0_0_1_n_n none
      (truncf .bf16 (mulf (shapeCast S256x4096 x0 shapeCasts_S256x4096_S256x4096) (k0_pay3 (F := Ideal) x0)) bitsLt_bf16_f32)
      (shapeCast S4096x4096 x1 shapeCasts_S4096x4096_S4096x4096 : FVec Ideal S4096x4096 .bf16) (constant S256x4096 .f32 0x00000000#32))
    (broadcastTo S256x4096 (shapeCast S1x4096 x2 shapeCasts_S1x4096_S1x4096) broadcasts_S1x4096_S256x4096)

theorem pay1_eq (x0 : Vec Ideal S256x4096 .f32) (x1 : Vec Ideal S4096x4096 .bf16) (x2 : Vec Ideal S1x4096 .f32) :
    k0_pay1 (F := Ideal) (k0_pay2 x0) (k0_pay3 x0) x1 x2 = blockVal x0 x1 x2 := rfl

theorem zero2 : (![0, 0] : Fin 2 → Nat) = fun _ => 0 := funext fun a => by fin_cases a <;> rfl

/-- The output buffer after the body is that value: the one store covers the whole block, and each load reads a whole block. -/
theorem out_eq (x0 : Vec Ideal S256x4096 .f32) (x1 : Vec Ideal S4096x4096 .bf16) (x2 : Vec Ideal S1x4096 .f32) :
    out0_3 (F := Ideal) x0 x1 x2 = blockVal x0 x1 x2 := by
  unfold out0_3
  rw [View.canon_unit_zero zero2]
  simp only [View.ld_unit_zero (S := S256x4096) zero2, View.ld_unit_zero (S := S4096x4096) zero2, View.ld_unit_zero (S := S1x4096) zero2]
  rfl

theorem dC_lhs0 (i : S256x4096.Idx) (q : (dot_S256x4096_S4096x4096_S256x4096_1_0_0_1_n_n).contr.Idx) :
    ((dot_S256x4096_S4096x4096_S256x4096_1_0_0_1_n_n).lhsIdx i q 0).val = (i 0).val := by
  unfold DotDims.lhsIdx
  rw [dif_neg (show ¬(0 : Fin S256x4096.rank) ∈ (dot_S256x4096_S4096x4096_S256x4096_1_0_0_1_n_n).lhsBatch by decide),
    dif_pos (show (0 : Fin S256x4096.rank) ∈ (dot_S256x4096_S4096x4096_S256x4096_1_0_0_1_n_n).lhsNonContracting by decide)]
  rfl
theorem dC_lhs1 (i : S256x4096.Idx) (q : (dot_S256x4096_S4096x4096_S256x4096_1_0_0_1_n_n).contr.Idx) :
    ((dot_S256x4096_S4096x4096_S256x4096_1_0_0_1_n_n).lhsIdx i q 1).val = (q ⟨0, by decide⟩).val :=
  (dot_S256x4096_S4096x4096_S256x4096_1_0_0_1_n_n).lhsIdx_val_of_single rfl i q
theorem dC_rhs0 (i : S256x4096.Idx) (q : (dot_S256x4096_S4096x4096_S256x4096_1_0_0_1_n_n).contr.Idx) :
    ((dot_S256x4096_S4096x4096_S256x4096_1_0_0_1_n_n).rhsIdx i q 0).val = (q ⟨0, by decide⟩).val :=
  (dot_S256x4096_S4096x4096_S256x4096_1_0_0_1_n_n).rhsIdx_val_of_single rfl i q
theorem dC_rhs1 (i : S256x4096.Idx) (q : (dot_S256x4096_S4096x4096_S256x4096_1_0_0_1_n_n).contr.Idx) :
    ((dot_S256x4096_S4096x4096_S256x4096_1_0_0_1_n_n).rhsIdx i q 1).val = (i 1).val := by
  unfold DotDims.rhsIdx
  rw [dif_neg (show ¬(1 : Fin S4096x4096.rank) ∈ (dot_S256x4096_S4096x4096_S256x4096_1_0_0_1_n_n).rhsBatch by decide),
    dif_pos (show (1 : Fin S4096x4096.rank) ∈ (dot_S256x4096_S4096x4096_S256x4096_1_0_0_1_n_n).rhsNonContracting by decide)]
  rfl

/-- The block product into a zero accumulator, at (r, n): the sum over the contracted column. -/
theorem prod_apply (A : FVec Ideal S256x4096 .bf16) (B : FVec Ideal S4096x4096 .bf16) (r : Fin 256) (n : Fin 4096) :
    matmul dot_S256x4096_S4096x4096_S256x4096_1_0_0_1_n_n none A B (constant S256x4096 .f32 0x00000000#32) (ix2 r n)
      = ∑ k : Fin 4096, A (ix2 r k) * B (ix2 k n) := by
  show FloatOps.matmul dot_S256x4096_S4096x4096_S256x4096_1_0_0_1_n_n none A B (constant S256x4096 .f32 0x00000000#32) (ix2 r n) = _
  rw [Ideal.matmul_constant_zero_apply, ← Equiv.sum_comp (contrEquiv1 dot_S256x4096_S4096x4096_S256x4096_1_0_0_1_n_n 4096 rfl rfl).symm]
  refine Finset.sum_congr rfl fun k _ => ?_
  have hk := contrEquiv1_symm_val dot_S256x4096_S4096x4096_S256x4096_1_0_0_1_n_n 4096 rfl rfl k
  have el : (dot_S256x4096_S4096x4096_S256x4096_1_0_0_1_n_n).lhsIdx (ix2 r n) ((contrEquiv1 dot_S256x4096_S4096x4096_S256x4096_1_0_0_1_n_n 4096 rfl rfl).symm k) = ix2 r k :=
    funext fun a => Fin.ext (by
      match a with
      | ⟨0, _⟩ => exact dC_lhs0 _ _
      | ⟨1, _⟩ => exact (dC_lhs1 _ _).trans hk)
  have er : (dot_S256x4096_S4096x4096_S256x4096_1_0_0_1_n_n).rhsIdx (ix2 r n) ((contrEquiv1 dot_S256x4096_S4096x4096_S256x4096_1_0_0_1_n_n 4096 rfl rfl).symm k) = ix2 k n :=
    funext fun a => Fin.ext (by
      match a with
      | ⟨0, _⟩ => exact (dC_rhs0 _ _).trans hk
      | ⟨1, _⟩ => exact dC_rhs1 _ _)
  rw [el, er]

/-- The stored value at row `r`, column `n`. -/
theorem blockVal_apply (x0 : Vec Ideal S256x4096 .f32) (x1 : Vec Ideal S4096x4096 .bf16) (x2 : Vec Ideal S1x4096 .f32)
    (r : Fin 256) (n : Fin 4096) :
    blockVal x0 x1 x2 (ix2 r n)
      = (∑ k : Fin 4096, (x0 (ix2 r k) * tileMask thr x0 r) * x1 (ix2 k n)) + x2 (ix2 (0 : Fin 1) n) := by
  unfold blockVal
  simp only [shapeCast_self]
  rw [addf_apply, prod_apply, broadcastTo_apply x2 broadcasts_S1x4096_S256x4096 (ix2 r n) (ix2 (0 : Fin 1) n)
    (fun a => match a with
      | ⟨0, _⟩ => by show 0 = if (1 : Nat) = 1 then 0 else r.val; rw [if_pos rfl]
      | ⟨1, _⟩ => by show n.val = if (4096 : Nat) = 1 then 0 else n.val; rw [if_neg (by decide)])]
  refine congrArg (· + x2 (ix2 (0 : Fin 1) n)) (Finset.sum_congr rfl fun k _ => ?_)
  show (x0 (ix2 r k) * k0_pay3 (F := Ideal) x0 (ix2 r k)) * x1 (ix2 k n) = _
  rw [pay3_apply]

end Cert.KernelIdeal.Block

end
-- ==== Proof.MaskSpec.lean ====
/-
  The result both programs compute, as one function of the three arguments, and the lemma that lets a block of
  256 rows compute its own rows' masks.

  x is read as 16384 rows of 4096 entries (row R of the flat view is x[R / 2048, R % 2048, ·]).  Row R of the
  result is the masked row times the transposed weights plus the bias:
      out[R, n] = Σ_k (x[R,k] · mask R) · W[n,k] + b[n],
  where mask R is 1 when some row of R's group of 64 rows has an entry above the threshold in absolute value.
  A block of 256 consecutive rows starting at a multiple of 256 contains whole groups, so the mask of a row
  computed inside its block is the mask computed in the whole array.
-/
import proofs.«179736_j89421219103267_2_alg».proof.Proof.MaskMath

noncomputable section

namespace Cert.TileMask

open Idealize.ShloMosaic Idealize.ShloMosaic.ValueIdx
open Classical

/-- The three-axis input as 16384 rows. -/
def rows (x : (⟨3, ![8, 2048, 4096]⟩ : Shape).Idx → EReal) : (⟨2, ![16384, 4096]⟩ : Shape).Idx → EReal :=
  fun j => x (ix3 (⟨(j 0).val / 2048, by have h := idx2_lt0 j; omega⟩ : Fin 8)
    (⟨(j 0).val % 2048, Nat.mod_lt _ (by decide)⟩ : Fin 2048) (⟨(j 1).val, idx2_lt1 j⟩ : Fin 4096))

/-- Row `R`, column `n` of the result. -/
def rowOut (θ : EReal) (A : (⟨2, ![16384, 4096]⟩ : Shape).Idx → EReal) (W : (⟨2, ![4096, 4096]⟩ : Shape).Idx → EReal)
    (b : (⟨1, ![4096]⟩ : Shape).Idx → EReal) (R : Fin 16384) (n : Fin 4096) : EReal :=
  (∑ k : Fin 4096, (A (ix2 R k) * tileMask θ A R) * W (ix2 n k)) + b (ix1 n)

/-- The result as 16384 rows. -/
def outRows (θ : EReal) (x : (⟨3, ![8, 2048, 4096]⟩ : Shape).Idx → EReal) (W : (⟨2, ![4096, 4096]⟩ : Shape).Idx → EReal)
    (b : (⟨1, ![4096]⟩ : Shape).Idx → EReal) : (⟨2, ![16384, 4096]⟩ : Shape).Idx → EReal :=
  fun j => rowOut θ (rows x) W b ⟨(j 0).val, idx2_lt0 j⟩ ⟨(j 1).val, idx2_lt1 j⟩

/-- The result in the input's three-axis shape. -/
def result (θ : EReal) (x : (⟨3, ![8, 2048, 4096]⟩ : Shape).Idx → EReal) (W : (⟨2, ![4096, 4096]⟩ : Shape).Idx → EReal)
    (b : (⟨1, ![4096]⟩ : Shape).Idx → EReal) : (⟨3, ![8, 2048, 4096]⟩ : Shape).Idx → EReal :=
  fun i => rowOut θ (rows x) W b
    ⟨(i 0).val * 2048 + (i 1).val, by
      have h0 : (i 0).val < 8 := (i 0).isLt
      have h1 : (i 1).val < 2048 := (i 1).isLt
      omega⟩
    ⟨(i 2).val, (i 2).isLt⟩

/-- The rows form at an index whose coordinates are `R` and `n`. -/
theorem outRows_at (θ : EReal) (x : (⟨3, ![8, 2048, 4096]⟩ : Shape).Idx → EReal) (W : (⟨2, ![4096, 4096]⟩ : Shape).Idx → EReal)
    (b : (⟨1, ![4096]⟩ : Shape).Idx → EReal) (j : (⟨2, ![16384, 4096]⟩ : Shape).Idx) (R : Fin 16384) (n : Fin 4096)
    (h0 : (j 0).val = R.val) (h1 : (j 1).val = n.val) : outRows θ x W b j = rowOut θ (rows x) W b R n := by
  unfold outRows
  have eR : (⟨(j 0).val, idx2_lt0 j⟩ : Fin 16384) = R := Fin.ext h0
  have en : (⟨(j 1).val, idx2_lt1 j⟩ : Fin 4096) = n := Fin.ext h1
  rw [eR, en]

/-- The three-axis form at an index whose flat row is `R` and whose column is `n`. -/
theorem result_at (θ : EReal) (x : (⟨3, ![8, 2048, 4096]⟩ : Shape).Idx → EReal) (W : (⟨2, ![4096, 4096]⟩ : Shape).Idx → EReal)
    (b : (⟨1, ![4096]⟩ : Shape).Idx → EReal) (i : (⟨3, ![8, 2048, 4096]⟩ : Shape).Idx) (R : Fin 16384) (n : Fin 4096)
    (h0 : (i 0).val * 2048 + (i 1).val = R.val) (h1 : (i 2).val = n.val) : result θ x W b i = rowOut θ (rows x) W b R n := by
  unfold result
  congr 1
  · exact Fin.ext h0
  · exact Fin.ext h1

/-- Inside the block of 256 rows that starts at row `256 · t`, a row's tile mask is its tile mask in the whole array. -/
theorem tileMask_block (θ : EReal) {N K : Nat} (A : (⟨2, ![N, K]⟩ : Shape).Idx → EReal) (xb : (⟨2, ![256, K]⟩ : Shape).Idx → EReal)
    (t : Nat) (ht : 256 * t + 256 ≤ N)
    (hx : ∀ (r' : Fin 256) (k : Fin K), xb (ix2 r' k) = A (ix2 (⟨256 * t + r'.val, by have := r'.isLt; omega⟩ : Fin N) k))
    (r : Fin 256) :
    tileMask θ xb r = tileMask θ A (⟨256 * t + r.val, by have := r.isLt; omega⟩ : Fin N) := by
  unfold tileMask
  refine if_congr ?_ rfl rfl
  unfold tileOn rowOn
  have hr := r.isLt
  constructor
  · rintro ⟨r', hg, k, hk⟩
    have hr' := r'.isLt
    refine ⟨⟨256 * t + r'.val, by omega⟩, ?_, k, ?_⟩
    · show (256 * t + r'.val) / 64 = (256 * t + r.val) / 64
      omega
    · rw [← hx r' k]; exact hk
  · rintro ⟨R', hg, k, hk⟩
    have hg' : R'.val / 64 = (256 * t + r.val) / 64 := hg
    have hlo : 256 * t ≤ R'.val := by omega
    have hhi : R'.val < 256 * t + 256 := by omega
    refine ⟨⟨R'.val - 256 * t, by omega⟩, ?_, k, ?_⟩
    · show (R'.val - 256 * t) / 64 = r.val / 64
      omega
    · have e : (⟨256 * t + (R'.val - 256 * t), by omega⟩ : Fin N) = R' := Fin.ext (by show 256 * t + (R'.val - 256 * t) = R'.val; omega)
      rw [hx ⟨R'.val - 256 * t, by omega⟩ k, e]
      exact hk

end Cert.TileMask

end
-- ==== Proof.KernelArray.lean ====
/-
  From the kernel's blocks to its whole result.

  Grid point t works on rows 256·t … 256·t + 255: the x window's block is those rows of x viewed as 16384 rows,
  the weight and bias windows are the whole (transposed) weight matrix and the bias row at every point, and the
  output window's block is those rows of the output.  What point t writes back is therefore rows 256·t … of the
  function `outRows` (MaskSpec): the mask computed inside the block is the mask of the whole array because a
  block is four whole groups.  The 64 blocks cover the output array, so after the region the array is `outRows`,
  and the reshape that follows the region gives `result`.
-/
import proofs.«179736_j89421219103267_2_alg».proof.Proof.Gen.KernelIdeal.Frame
import proofs.«179736_j89421219103267_2_alg».proof.Proof.KernelBlock
import proofs.«179736_j89421219103267_2_alg».proof.Proof.MaskSpec
import Idealize.ShloMosaic.Lib.Pipeline.Value
import Idealize.ShloMosaic.Lib.StableHlo.Run

set_option maxRecDepth 16384

noncomputable section

namespace Cert.KernelIdeal.Arr

open Cert.KernelIdeal Cert.KernelIdeal.Gen Cert.KernelIdeal.Mask Cert.KernelIdeal.Block
open Idealize.ShloMosaic Idealize.ShloMosaic.TcCoe Idealize.ShloMosaic.ValueIdx Idealize.SL.Sem Cert.TileMask
open Idealize.ShloMosaic.Pipeline (Dat)

variable (m : (ℓ : Loc nD τ sig) → Buf (Elt Ideal) ℓ) (ρ : Dev nD → PrngReg)

/-! ## What the region finds in its input arrays -/

/-- x, reshaped to 16384 rows before the region. -/
theorem V0_eq (c : Dev nD) :
    (V m c main_v0 : S16384x4096.Idx → EReal) = rows (m ((c.tc : Thread nD τ).loc main_arg0)) := by
  have e : (V m c main_v0 : S16384x4096.Idx → EReal)
      = shapeCast S16384x4096 (m ((c.tc : Thread nD τ).loc main_arg0)) shapeCasts_S8x2048x4096_S16384x4096 := by
    show StableHlo.after hostOps0 (fun b => m (c, b)) (Proc.devRef .tc main_v0) = _
    after_results
    rfl
  rw [e]
  funext j
  have h0 : (j 0).val < 16384 := (j 0).isLt
  have h1 : (j 1).val < 4096 := (j 1).isLt
  unfold rows
  exact shapeCast_apply _ shapeCasts_S8x2048x4096_S16384x4096 j _ (by
    rw [Shape.rowMajor_val_three, Shape.rowMajor_val_two]
    show ((j 0).val / 2048 * 2048 + (j 0).val % 2048) * 4096 + (j 1).val = (j 0).val * 4096 + (j 1).val
    omega)

/-- The weights, transposed before the region (the change of format is the identity). -/
theorem V2_apply (c : Dev nD) (k n : Fin 4096) :
    (V m c main_v2 : S4096x4096.Idx → EReal) (ix2 k n) = m ((c.tc : Thread nD τ).loc main_arg1) (ix2 n k) := by
  have e : (V m c main_v2 : S4096x4096.Idx → EReal)
      = transpose S4096x4096 [1, 0] (m ((c.tc : Thread nD τ).loc main_arg1) : S4096x4096.Idx → EReal) transposes_S4096x4096_S4096x4096_1_0 := by
    show StableHlo.after hostOps0 (fun b => m (c, b)) (Proc.devRef .tc main_v2) = _
    after_results
    rfl
  rw [e]
  exact transpose_apply [1, 0] _ transposes_S4096x4096_S4096x4096_1_0 (ix2 k n) (ix2 n k)
    (fun b => match b with
      | ⟨0, _⟩ => rfl
      | ⟨1, _⟩ => rfl)

/-- The bias, reshaped to one row before the region. -/
theorem V3_apply (c : Dev nD) (z : Fin 1) (n : Fin 4096) :
    (V m c main_v3 : S1x4096.Idx → EReal) (ix2 z n) = m ((c.tc : Thread nD τ).loc main_arg2) (ix1 n) := by
  have e : (V m c main_v3 : S1x4096.Idx → EReal)
      = shapeCast S1x4096 (m ((c.tc : Thread nD τ).loc main_arg2)) shapeCasts_S4096_S1x4096 := by
    show StableHlo.after hostOps0 (fun b => m (c, b)) (Proc.devRef .tc main_v3) = _
    after_results
    rfl
  rw [e]
  have hz := z.isLt
  exact shapeCast_apply _ shapeCasts_S4096_S1x4096 (ix2 z n) (ix1 n) (by
    rw [Shape.rowMajor_val_one, Shape.rowMajor_val_two]
    show n.val = z.val * 4096 + n.val
    omega)

/-! ## The windows' blocks -/

/-- The printed index maps over the grid: the x and output windows move one block of rows per point, the weight and
    bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row r of the x block at point t is row 256·t + r of x. -/
theorem iblk0_apply (c : Dev nD) (t : Fin cfg0.N) (r : Fin 256) (k : Fin 4096) :
    (iblk m c 0 t : S256x4096.Idx → EReal) (ix2 r k)
      = rows (m ((c.tc : Thread nD τ).loc main_arg0)) (ix2 (⟨256 * t.val + r.val, by have := point_lt t; have := r.isLt; omega⟩ : Fin 16384) k) := by
  obtain ⟨e00, e01, -⟩ := idx_facts t
  rw [← V0_eq m c]
  show V m c main_v0 (((cfg0.win 0).blk t).view.emb (ix2 r k)) = V m c main_v0 (ix2 _ k)
  refine congrArg (V m c main_v0) (funext fun a => Fin.ext ?_)
  match a with
  | ⟨0, _⟩ => show win0_0.index t (0 : Fin 2) * 256 + 1 * r.val = 256 * t.val + r.val; rw [e00]; omega
  | ⟨1, _⟩ => show win0_0.index t (1 : Fin 2) * 4096 + 1 * k.val = k.val; rw [e01]; omega

/-- The weight block at every point is the whole transposed weight matrix. -/
theorem iblk1_apply (c : Dev nD) (t : Fin cfg0.N) (k n : Fin 4096) :
    (iblk m c 1 t : S4096x4096.Idx → EReal) (ix2 k n) = m ((c.tc : Thread nD τ).loc main_arg1) (ix2 n k) := by
  obtain ⟨-, -, e10, e11, -⟩ := idx_facts t
  rw [← V2_apply m c k n]
  show V m c main_v2 (((cfg0.win 1).blk t).view.emb (ix2 k n)) = V m c main_v2 (ix2 k n)
  refine congrArg (V m c main_v2) (funext fun a => Fin.ext ?_)
  match a with
  | ⟨0, _⟩ => show win0_1.index t (0 : Fin 2) * 4096 + 1 * k.val = k.val; rw [e10]; omega
  | ⟨1, _⟩ => show win0_1.index t (1 : Fin 2) * 4096 + 1 * n.val = n.val; rw [e11]; omega

/-- The bias block at every point is the bias row. -/
theorem iblk2_apply (c : Dev nD) (t : Fin cfg0.N) (z : Fin 1) (n : Fin 4096) :
    (iblk m c 2 t : S1x4096.Idx → EReal) (ix2 z n) = m ((c.tc : Thread nD τ).loc main_arg2) (ix1 n) := by
  obtain ⟨-, -, -, -, e20, e21, -⟩ := idx_facts t
  rw [← V3_apply m c z n]
  show V m c main_v3 (((cfg0.win 2).blk t).view.emb (ix2 z n)) = V m c main_v3 (ix2 z n)
  refine congrArg (V m c main_v3) (funext fun a => Fin.ext ?_)
  match a with
  | ⟨0, _⟩ => show win0_2.index t (0 : Fin 2) * 1 + 1 * z.val = z.val; rw [e20]; omega
  | ⟨1, _⟩ => show win0_2.index t (1 : Fin 2) * 4096 + 1 * n.val = n.val; rw [e21]; omega

/-! ## What a point writes back, the cover, the array -/

/-- The whole output array as the function of the arguments. -/
abbrev target (c : Dev nD) : S16384x4096.Idx → EReal :=
  outRows thr (m ((c.tc : Thread nD τ).loc main_arg0)) (m ((c.tc : Thread nD τ).loc main_arg1)) (m ((c.tc : Thread nD τ).loc main_arg2))

/-- Point t writes back rows 256·t … 256·t + 255 of the target. -/
theorem flushed_eq (c : Dev nD) (t : Fin cfg0.N) :
    (dats m 0 c).flushed 3 t = ((cfg0.win 3).blk t).view.read (Elt Ideal) (target m c) := by
  show (cfg0.win 3).cut (grid0.coords t) ((dats m 0 c).after 3 t) = _
  rw [after0_3, out_eq]
  obtain ⟨-, -, -, -, -, -, e30, e31⟩ := idx_facts t
  have ht := point_lt t
  funext y
  have hy0 : (y 0).val < 256 := (y 0).isLt
  have hy1 : (y 1).val < 4096 := (y 1).isLt
  have hy : (y : S256x4096.Idx) = ix2 (⟨(y 0).val, hy0⟩ : Fin 256) (⟨(y 1).val, hy1⟩ : Fin 4096) := by
    funext a
    match a with
    | ⟨0, _⟩ => rfl
    | ⟨1, _⟩ => rfl
  show blockVal (iblk m c 0 t) (iblk m c 1 t) (iblk m c 2 t) y = target m c (((cfg0.win 3).blk t).view.emb y)
  refine ((congrArg (blockVal (iblk m c 0 t) (iblk m c 1 t) (iblk m c 2 t)) hy).trans
    (blockVal_apply (iblk m c 0 t) (iblk m c 1 t) (iblk m c 2 t) ⟨(y 0).val, hy0⟩ ⟨(y 1).val, hy1⟩)).trans ?_
  show _ = outRows thr (m ((c.tc : Thread nD τ).loc main_arg0)) (m ((c.tc : Thread nD τ).loc main_arg1)) (m ((c.tc : Thread nD τ).loc main_arg2))
    (((cfg0.win 3).blk t).view.emb y)
  rw [outRows_at thr _ _ _ (((cfg0.win 3).blk t).view.emb y) (⟨256 * t.val + (y 0).val, by omega⟩ : Fin 16384) (⟨(y 1).val, hy1⟩ : Fin 4096)
    (by show win0_3.index t (0 : Fin 2) * 256 + 1 * (y 0).val = 256 * t.val + (y 0).val; rw [e30]; omega)
    (by show win0_3.index t (1 : Fin 2) * 4096 + 1 * (y 1).val = (y 1).val; rw [e31]; omega)]
  unfold rowOut
  refine congrArg₂ (· + ·) (Finset.sum_congr rfl fun k _ => ?_) (iblk2_apply m c t 0 ⟨(y 1).val, hy1⟩)
  rw [iblk0_apply m c t ⟨(y 0).val, hy0⟩ k, iblk1_apply m c t k ⟨(y 1).val, hy1⟩,
    tileMask_block thr (rows (m ((c.tc : Thread nD τ).loc main_arg0))) (iblk m c 0 t) t.val (by omega)
      (fun r' k' => iblk0_apply m c t r' k') ⟨(y 0).val, hy0⟩]

/-- An index of the output array is in point t's block when each coordinate is in the block's range. -/
theorem mem_blk (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v4).slice (win0_3.rect t)).set ↔ _
  rw [View.set_slice_whole, Rect.mem_set_unit]
  exact Iff.rfl

/-- The output array after the region. -/
theorem final (c : Dev nD) : (dats m 0 c).arrAt 3 cfg0.N = target m c :=
  (dats m 0 c).arrAt_eq_of_cover 3 (target m c) (fun t _ => flushed_eq m c t) (fun i => by
    have h0 : (i 0).val < 16384 := (i 0).isLt
    have h1 : (i 1).val < 4096 := (i 1).isLt
    have hN : (i 0).val / 256 < cfg0.N := by show _ < grid0.N; rw [N_0]; omega
    obtain ⟨-, -, -, -, -, -, e30, e31⟩ := idx_facts ⟨(i 0).val / 256, hN⟩
    refine ⟨⟨(i 0).val / 256, hN⟩, flush0_3 _, ?_⟩
    rw [mem_blk]
    intro a
    match a with
    | ⟨0, _⟩ =>
      show win0_3.index ⟨(i 0).val / 256, hN⟩ (0 : Fin 2) * 256 ≤ (i 0).val ∧ (i 0).val < win0_3.index ⟨(i 0).val / 256, hN⟩ (0 : Fin 2) * 256 + 256
      rw [e30]; show (i 0).val / 256 * 256 ≤ (i 0).val ∧ (i 0).val < (i 0).val / 256 * 256 + 256; omega
    | ⟨1, _⟩ =>
      show win0_3.index ⟨(i 0).val / 256, hN⟩ (1 : Fin 2) * 4096 ≤ (i 1).val ∧ (i 1).val < win0_3.index ⟨(i 0).val / 256, hN⟩ (1 : Fin 2) * 4096 + 4096
      rw [e31]; omega)

/-! ## The reshape after the region, and the run -/

/-- The program's result buffer after the run. -/
theorem tail_eq (c : Dev nD) :
    Pipeline.afterTail₀ cfgs (dats m) 0 (V0 m) [hostOps1] c main_v5
      = result thr (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4) = target m c :=
    (Pipeline.withArrays_arr spec0 launch0.win.arr_inj c _ _ 3).trans (final m c)
  funext i
  have h0 : (i 0).val < 8 := (i 0).isLt
  have h1 : (i 1).val < 2048 := (i 1).isLt
  have h2 : (i 2).val < 4096 := (i 2).isLt
  show shapeCast S8x2048x4096 (Pipeline.withArrays (cfgs 0).spec c (V0 m c) (fun w => (dats m 0 c).arrAt w (cfgs 0).N) (Proc.devRef .tc main_v4))
    shapeCasts_S16384x4096_S8x2048x4096 i = _
  rw [hw]
  refine (shapeCast_apply (target m c) shapeCasts_S16384x4096_S8x2048x4096 i
    (ix2 (⟨(i 0).val * 2048 + (i 1).val, by omega⟩ : Fin 16384) (⟨(i 2).val, h2⟩ : Fin 4096))
    (by rw [Shape.rowMajor_val_two, Shape.rowMajor_val_three]; rfl)).trans ?_
  rw [result_at thr _ _ _ i ⟨(i 0).val * 2048 + (i 1).val, by omega⟩ ⟨(i 2).val, h2⟩ rfl rfl]
  exact outRows_at thr _ _ _ _ ⟨(i 0).val * 2048 + (i 1).val, by omega⟩ ⟨(i 2).val, h2⟩ rfl rfl

/-- The kernel's run: every weakly fair execution terminates with the result buffer at `result` of the arguments and the
    arguments unchanged. -/
theorem run : θ_run defs (onTc (τ := τ) (main (F := Ideal))) ⟨m, fun _ => 0, ρ⟩ (fun r => ∀ c : Dev nD,
      r.2.mem ((c.tc : Thread nD τ).loc main_v5)
        = result thr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arr

end
-- ==== Proof.RefValue.lean ====
/-
  The reference's result is `result` (MaskSpec).

  The reference views x as 16384 rows, compares every absolute value with the threshold, reduces each row by
  "or" (is some entry of the row above the threshold?), views the 16384 row bits as 256 groups of 64 and reduces
  each group by "or" (is some row of the group on?), copies each group's bit back to its 64 rows, converts the
  bit to 0/1, multiplies each row of x by its number, multiplies by the transposed weights, adds the bias and
  views the rows in the input's three-axis shape.  An "or" over a finite family is 1 exactly when a member is 1,
  so the row number is the tile mask.
-/
import proofs.«179736_j89421219103267_2_alg».proof.Proof.Gen.ReferenceIdeal.Read
import proofs.«179736_j89421219103267_2_alg».proof.Proof.MaskSpec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.TileMask
open Classical

-- Each stage is used only through its value at an index.
attribute [local irreducible] val_main_v0 val_main_v1 val_main_v3 val_main_v5 val_main_v7 val_main_v8 val_main_v9 val_main_v10
  val_main_v11 val_main_v12 val_main_v13 val_main_v14 val_main_v15 val_main_v16 val_main_v17

/-! ## An "or" over a finite family -/

theorem ori_one (y z : BitVec 1) : IntOp.ori y z = 1#1 ↔ y = 1#1 ∨ z = 1#1 := by
  revert y z; decide

/-- The "or" of a finite family of bits, from 0, is 1 exactly when a member is 1. -/
theorem fold_ori_eq_one {K : Nat} (f : Fin K → BitVec 1) :
    (Finset.univ : Finset (Fin K)).fold IntOp.ori 0#1 f = 1#1 ↔ ∃ k, f k = 1#1 := by
  have h := Finset.fold_op_rel_iff_or (op := IntOp.ori) (s := (Finset.univ : Finset (Fin K))) (b := 0#1) (f := f)
    (r := fun (_ v : BitVec 1) => v = 1#1) (fun {x y z} => ori_one y z) (c := 0#1)
  refine h.trans ?_
  constructor
  · rintro (h0 | ⟨k, -, hk⟩)
    · exact absurd h0 (by decide)
    · exact ⟨k, hk⟩
  · rintro ⟨k, hk⟩
    exact Or.inr ⟨k, Finset.mem_univ k, hk⟩

/-! ## The shapes' reductions and their inserted indices -/

theorem red_rows : S16384x4096.Reduces [1] S16384 := by decide
theorem red_groups : S256x64.Reduces [1] S256 := by decide

theorem lift_rows (R : Fin 16384) (k : Fin 4096) : red_rows.lift (ix1 R) k = ix2 R k := by
  funext a
  apply Fin.ext
  match a with
  | ⟨0, _⟩ => rfl
  | ⟨1, _⟩ => rfl

theorem lift_groups (g : Fin 256) (s : Fin 64) : red_groups.lift (ix1 g) s = ix2 g s := by
  funext a
  apply Fin.ext
  match a with
  | ⟨0, _⟩ => rfl
  | ⟨1, _⟩ => rfl

/-- An "or"-reduction along the rows of any 16384 × 4096 array of bits, from 0: is some entry of the row 1? -/
theorem reduce_rows (y : S16384x4096.Idx → BitVec 1) (init : S_.Idx → BitVec 1) (hinit : init (Shape.Idx.first h_S_) = 0#1)
    (R : Fin 16384) :
    Host.reduce IntOp.ori y init reducesTo_S16384x4096_S16384_d1 h_S_ (ix1 R) = 1#1 ↔ ∃ k : Fin 4096, y (ix2 R k) = 1#1 := by
  rw [Host.reduce_eq_fold_single IntOp.ori y init reducesTo_S16384x4096_S16384_d1 red_rows h_S_ (ix1 R), hinit, fold_ori_eq_one]
  exact exists_congr fun k => iff_of_eq (congrArg (fun j => y j = 1#1) (lift_rows R k))

/-- An "or"-reduction along the rows of any 256 × 64 array of bits, from 0: is some entry of the row 1? -/
theorem reduce_groups (y : S256x64.Idx → BitVec 1) (init : S_.Idx → BitVec 1) (hinit : init (Shape.Idx.first h_S_) = 0#1)
    (g : Fin 256) :
    Host.reduce IntOp.ori y init reducesTo_S256x64_S256_d1 h_S_ (ix1 g) = 1#1 ↔ ∃ s : Fin 64, y (ix2 g s) = 1#1 := by
  rw [Host.reduce_eq_fold_single IntOp.ori y init reducesTo_S256x64_S256_d1 red_groups h_S_ (ix1 g), hinit, fold_ori_eq_one]
  exact exists_congr fun s => iff_of_eq (congrArg (fun j => y j = 1#1) (lift_groups g s))

/-! ## The stages -/

/-- The reshape of x is the rows view. -/
theorem v0_rows (x0 : (⟨S8x2048x4096, .f32⟩ : BufTy).Contents (Elt Ideal)) : val_main_v0 (F := Ideal) x0 = rows x0 := by
  funext j
  have h0 : (j 0).val < 16384 := (j 0).isLt
  have h1 : (j 1).val < 4096 := (j 1).isLt
  rw [val_main_v0_apply]
  unfold rows
  refine congrArg x0 (funext fun a => Fin.ext ?_)
  match a with
  | ⟨0, _⟩ => show ((j 0).val * 4096 + (j 1).val) / 8388608 = (j 0).val / 2048; omega
  | ⟨1, _⟩ => show ((j 0).val * 4096 + (j 1).val) / 4096 % 2048 = (j 0).val % 2048; omega
  | ⟨2, _⟩ => show ((j 0).val * 4096 + (j 1).val) % 4096 = (j 1).val; omega

/-- The comparison bit of an entry. -/
theorem v3_iff (x0 : (⟨S8x2048x4096, .f32⟩ : BufTy).Contents (Elt Ideal)) (R : Fin 16384) (k : Fin 4096) :
    val_main_v3 (F := Ideal) x0 (ix2 R k) = 1#1 ↔ thr < max (rows x0 (ix2 R k)) (-(rows x0 (ix2 R k))) := by
  rw [val_main_v3_apply, val_main_v1_apply, val_main_v2_apply, val_main_cst_apply, v0_rows]
  show Ideal.cmp .ogt (max (rows x0 (ix2 R k)) (-(rows x0 (ix2 R k)))) thr = 1#1 ↔ _
  exact gt_bit _ _

/-- The row bit: some entry of the row is above the threshold. -/
theorem v4_iff (x0 : (⟨S8x2048x4096, .f32⟩ : BufTy).Contents (Elt Ideal)) (R : Fin 16384) :
    val_main_v4 (F := Ideal) x0 (ix1 R) = 1#1 ↔ rowOn thr (rows x0) R := by
  unfold val_main_v4
  rw [reduce_rows (val_main_v3 (F := Ideal) x0) (val_main_c (F := Ideal)) rfl R]
  unfold rowOn
  exact exists_congr fun k => v3_iff x0 R k

attribute [local irreducible] val_main_v4

theorem idx5 (g : Fin 256) (s : Fin 64) :
    idx_main_v5 (ix2 g s) = ix1 (⟨g.val * 64 + s.val, by have := g.isLt; have := s.isLt; omega⟩ : Fin 16384) := by
  funext a
  apply Fin.ext
  match a with
  | ⟨0, _⟩ => rfl

/-- Row `s` of group `g` in the 256 × 64 view is row `64 · g + s`. -/
theorem v5_iff (x0 : (⟨S8x2048x4096, .f32⟩ : BufTy).Contents (Elt Ideal)) (g : Fin 256) (s : Fin 64) :
    val_main_v5 (F := Ideal) x0 (ix2 g s) = 1#1
      ↔ rowOn thr (rows x0) (⟨g.val * 64 + s.val, by have := g.isLt; have := s.isLt; omega⟩ : Fin 16384) := by
  rw [val_main_v5_apply, idx5]
  exact v4_iff x0 _

/-- The group bit: some row of the group is on. -/
theorem v6_iff (x0 : (⟨S8x2048x4096, .f32⟩ : BufTy).Contents (Elt Ideal)) (g : Fin 256) :
    val_main_v6 (F := Ideal) x0 (ix1 g) = 1#1
      ↔ ∃ s : Fin 64, rowOn thr (rows x0) (⟨g.val * 64 + s.val, by have := g.isLt; have := s.isLt; omega⟩ : Fin 16384) := by
  unfold val_main_v6
  rw [reduce_groups (val_main_v5 (F := Ideal) x0) (val_main_c_0 (F := Ideal)) rfl g]
  exact exists_congr fun s => v5_iff x0 g s

attribute [local irreducible] val_main_v6

/-- The group bit of row `R`'s group says that `R`'s tile is on. -/
theorem group_iff (x0 : (⟨S8x2048x4096, .f32⟩ : BufTy).Contents (Elt Ideal)) (R : Fin 16384) :
    val_main_v6 (F := Ideal) x0 (ix1 (⟨R.val / 64, by have := R.isLt; omega⟩ : Fin 256)) = 1#1 ↔ tileOn thr (rows x0) R := by
  have hR := R.isLt
  rw [v6_iff]
  unfold tileOn
  constructor
  · rintro ⟨s, hs⟩
    have hs' := s.isLt
    exact ⟨⟨R.val / 64 * 64 + s.val, by omega⟩, by show (R.val / 64 * 64 + s.val) / 64 = R.val / 64; omega, hs⟩
  · rintro ⟨R', hg, hr⟩
    have hR' := R'.isLt
    refine ⟨⟨R'.val % 64, Nat.mod_lt _ (by decide)⟩, ?_⟩
    have e : (⟨R.val / 64 * 64 + R'.val % 64, by omega⟩ : Fin 16384) = R' := Fin.ext (by show R.val / 64 * 64 + R'.val % 64 = R'.val; omega)
    rw [e]
    exact hr

/-- The row number the reference multiplies by is the tile mask. -/
theorem v9_apply (x0 : (⟨S8x2048x4096, .f32⟩ : BufTy).Contents (Elt Ideal)) (R : Fin 16384) :
    val_main_v9 (F := Ideal) x0 (ix1 R) = tileMask thr (rows x0) R := by
  have hidx : idx_main_v7 (idx_main_v8 (ix1 R)) = ix1 (⟨R.val / 64, by have := R.isLt; omega⟩ : Fin 256) := by
    funext a
    apply Fin.ext
    match a with
    | ⟨0, _⟩ => rfl
  rw [val_main_v9_apply, val_main_v8_apply, val_main_v7_apply, hidx]
  show (((val_main_v6 (F := Ideal) x0 (ix1 (⟨R.val / 64, _⟩ : Fin 256))).toNat : ℝ) : EReal) = _
  rw [bit_unsigned]
  unfold tileMask
  by_cases h : tileOn thr (rows x0) R
  · rw [if_pos h, if_pos ((group_iff x0 R).mpr h)]
  · rw [if_neg h, if_neg (fun h' => h ((group_iff x0 R).mp h'))]

/-- The product stage at row `R`, column `n`. -/
theorem v14_at (x0 : (⟨S8x2048x4096, .f32⟩ : BufTy).Contents (Elt Ideal)) (x1 : (⟨S4096x4096, .f32⟩ : BufTy).Contents (Elt Ideal))
    (R : Fin 16384) (n : Fin 4096) :
    val_main_v14 (F := Ideal) x0 x1 (ix2 R n) = ∑ k : Fin 4096, (rows x0 (ix2 R k) * tileMask thr (rows x0) R) * x1 (ix2 n k) := by
  rw [val_main_v14_apply]
  refine Finset.sum_congr rfl fun k _ => ?_
  have hl : lidx_main_v14 (ix2 R n) k = ix2 R k := by
    funext a
    apply Fin.ext
    match a with
    | ⟨0, _⟩ => rfl
    | ⟨1, _⟩ => rfl
  have hr : idx_main_v13 (ridx_main_v14 (ix2 R n) k) = ix2 n k := by
    funext a
    apply Fin.ext
    match a with
    | ⟨0, _⟩ => rfl
    | ⟨1, _⟩ => rfl
  have h9 : idx_main_v10 (idx_main_v11 (ix2 R k)) = ix1 R := by
    funext a
    apply Fin.ext
    match a with
    | ⟨0, _⟩ => rfl
  rw [hl, val_main_v12_apply, val_main_v13_apply, hr, v0_rows, val_main_v11_apply, val_main_v10_apply, h9, v9_apply]
  rfl

/-- The reference's result. -/
theorem ref_eq (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) :
    val_main_v18 (F := Ideal) x0 x1 x2 = result thr x0 x1 x2 := by
  funext i
  have h0 : (i 0).val < 8 := (i 0).isLt
  have h1 : (i 1).val < 2048 := (i 1).isLt
  have h2 : (i 2).val < 4096 := (i 2).isLt
  have hj : idx_main_v18 i = ix2 (⟨(i 0).val * 2048 + (i 1).val, by omega⟩ : Fin 16384) (⟨(i 2).val, h2⟩ : Fin 4096) := by
    funext a
    apply Fin.ext
    match a with
    | ⟨0, _⟩ => show (((i 0).val * 2048 + (i 1).val) * 4096 + (i 2).val) / 4096 = (i 0).val * 2048 + (i 1).val; omega
    | ⟨1, _⟩ => show (((i 0).val * 2048 + (i 1).val) * 4096 + (i 2).val) % 4096 = (i 2).val; omega
  have hb : idx_main_v15 (idx_main_v16 (ix2 (⟨(i 0).val * 2048 + (i 1).val, by omega⟩ : Fin 16384) (⟨(i 2).val, h2⟩ : Fin 4096)))
      = ix1 (⟨(i 2).val, h2⟩ : Fin 4096) := by
    funext a
    apply Fin.ext
    match a with
    | ⟨0, _⟩ => rfl
  rw [val_main_v18_apply, val_main_v17_apply, hj, v14_at, val_main_v16_apply, val_main_v15_apply, hb,
    result_at thr x0 x1 x2 i ⟨(i 0).val * 2048 + (i 1).val, by omega⟩ ⟨(i 2).val, h2⟩ rfl rfl]
  rfl

end Cert.ReferenceIdeal.RefValue

end
-- ==== Proof.lean ====
/-
  A tile-masked linear layer: the kernel against its reference, on the extended reals.

  Both programs view x as 16384 rows of 4096 entries and compute
      out[R, n] = Σ_k (x[R,k] · mask R) · W[n,k] + b[n],
  where mask R is 1 when some row in R's group of 64 consecutive rows has an entry whose absolute value exceeds the
  threshold, and 0 otherwise (`Cert.TileMask.result`, MaskSpec).

  The reference gets the mask by Boolean reductions: an "or" along each row of the comparison bits, then an "or"
  over each group of 64 row bits, copied back to the group's rows (RefValue).  The kernel works on blocks of 256
  rows: it compares each row's largest absolute value with the threshold, and finds "some row of the group is
  active" by two small products with the 0/1 matrix "row r lies in group g" — the group's count of active rows,
  compared with zero, then spread back to the rows (KernelMask).  A maximum exceeds the threshold exactly when a
  term does, and a sum of 0/1 terms is positive exactly when a term is 1, so both are the same mask; a block of
  256 rows is four whole groups, so the mask a block computes is the mask of the whole array (MaskSpec).  The
  products are the same finite sums, a change of float format is the identity, and the blocks tile the output
  (KernelBlock, KernelArray).  No step uses that the inputs are finite.

  The three frames: the kernel's two are the generated ones; the reference's is its generated run with the result
  dropped.  The idealization rewrote nothing, so there is nothing to preserve.
-/
import proofs.«179736_j89421219103267_2_alg».proof.Defs
import proofs.«179736_j89421219103267_2_alg».proof.Proof.Gen.Kernel
import proofs.«179736_j89421219103267_2_alg».proof.Proof.Gen.Kernel.Skeleton
import proofs.«179736_j89421219103267_2_alg».proof.Proof.Gen.Kernel.Launch
import proofs.«179736_j89421219103267_2_alg».proof.Proof.Gen.Kernel.Points
import proofs.«179736_j89421219103267_2_alg».proof.Proof.Gen.Kernel.Frame
import proofs.«179736_j89421219103267_2_alg».proof.Proof.Gen.KernelIdeal
import proofs.«179736_j89421219103267_2_alg».proof.Proof.Gen.KernelIdeal.Skeleton
import proofs.«179736_j89421219103267_2_alg».proof.Proof.Gen.KernelIdeal.Launch
import proofs.«179736_j89421219103267_2_alg».proof.Proof.Gen.KernelIdeal.Points
import proofs.«179736_j89421219103267_2_alg».proof.Proof.Gen.KernelIdeal.Frame
import proofs.«179736_j89421219103267_2_alg».proof.Proof.Gen.ReferenceIdeal
import proofs.«179736_j89421219103267_2_alg».proof.Proof.Gen.ReferenceIdeal.Run
import proofs.«179736_j89421219103267_2_alg».proof.Proof.Gen.ReferenceIdeal.Read
import proofs.«179736_j89421219103267_2_alg».proof.Proof.Gen.Pre_finite_inputs
import proofs.«179736_j89421219103267_2_alg».proof.Proof.KernelArray
import proofs.«179736_j89421219103267_2_alg».proof.Proof.RefValue
import Idealize.ShloMosaic.Adequacy
import Idealize.ShloMosaic.Init

noncomputable section

namespace Cert.Proof

open Idealize.ShloMosaic Idealize.SL.Sem Cert.TileMask

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result buffer at `result` of the arguments, which agree. -/
theorem algebraic : Cert.algebraic_KernelIdeal_ReferenceIdeal := by
  intro m ρ m' ρ' _ hagree
  refine ⟨fun c => result thr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Arr.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
